-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S1x8192 : Shape := ⟨2, ![1, 8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S1x8192 : S_.BroadcastsInDim S1x8192 (![] : Fin 0 → Fin S1x8192.rank)
  reducesTo_S1x8192_S_d0_1 : S1x8192.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  main_v18

def fn {F : FTy → Type} [FloatOps F] (main_arg0 : FVec F S8192 .f32) (main_arg1 : FVec F S1x8192 .f32) (main_arg2 : FVec F S8192x8192 .f32) (main_arg3 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S1x8192 .f32 := Host.absf main_arg1
  let main_cst_0 : FVec F S_ .f32 := constant S_ .f32 0x7F800000#32
  let main_v5 : FVec F S1x8192 .f32 := broadcastInDim S1x8192 ![] bcast_S_S1x8192 main_cst_0
  let main_v6 : IVec S1x8192 1 := cmpf .olt main_v4 main_v5
  let main_c_1 : IVec S_ 1 := constantI S_ 1 1#1
  let main_v7 : IVec S_ 1 := (fun x v => Host.reduce IntOp.andi x v reducesTo_S1x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_v13 main_v16
-- ==== Kernel.lean ====
abbrev S8192 : Shape := ⟨1, ![8192]⟩
abbrev S1x8192 : Shape := ⟨2, ![1, 8192]⟩
abbrev S8192x8192 : Shape := ⟨2, ![8192, 8192]⟩
abbrev S8192x1 : Shape := ⟨2, ![8192, 1]⟩
abbrev S512x1 : Shape := ⟨2, ![512, 1]⟩
abbrev S1x2048 : Shape := ⟨2, ![1, 2048]⟩
abbrev S512x2048 : Shape := ⟨2, ![512, 2048]⟩
abbrev S2048 : Shape := ⟨1, ![2048]⟩
abbrev S_ : Shape := ⟨0, ![]⟩

abbrev nBuf : Space → Nat
  | .hbm => 12
  | .vmem => 15
  | .smem => 0
  | _ => 0

abbrev bufTy : (tb : Table) → Fin (tcTables nBuf tb) → BufTy
  | .hbm, ⟨0, _⟩ => ⟨S8192, .f32⟩
  | .hbm, ⟨1, _⟩ => ⟨S1x8192, .f32⟩
  | .hbm, ⟨2, _⟩ => ⟨S8192x8192, .f32⟩
  | .hbm, ⟨3, _⟩ => ⟨S8192x8192, .f32⟩
  | .hbm, ⟨4, _⟩ => ⟨S8192x1, .f32⟩
  | .hbm, ⟨5, _⟩ => ⟨S1x8192, .i32⟩
  | .hbm, ⟨6, _⟩ => ⟨S1x8192, .f32⟩
  | .hbm, ⟨7, _⟩ => ⟨S8192x8192, .f32⟩
  | .hbm, ⟨8, _⟩ => ⟨S_, .i32⟩
  | .hbm, ⟨9, _⟩ => ⟨S1x8192, .i32⟩
  | .hbm, ⟨10, _⟩ => ⟨S1x8192, .i1⟩
  | .hbm, ⟨11, _⟩ => ⟨S1x8192, .i1⟩
  | .local _ .vmem, ⟨0, _⟩ => ⟨S512x1, .f32⟩
  | .local _ .vmem, ⟨1, _⟩ => ⟨S512x1, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .i32⟩
  | .local _ .vmem, ⟨9, _⟩ => ⟨S1x2048, .i32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_13 : BitVec 32 := 0#32
  let v22 : BitVec 1 := Scalar.cmpi .ne v21 c0_i32_13
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S8192_S8192x1 : S8192.ShapeCasts S8192x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  broadcasts_S512x1_S512x2048 : S512x1.Broadcasts S512x2048
  reduces_S512x2048_S2048 : S512x2048.Reduces [0] S2048
  shapeCasts_S2048_S1x2048 : S2048.ShapeCasts S1x2048
  natLt_1_32 : 1 < 32
  bcast_S_S1x8192 : S_.BroadcastsInDim S1x8192 (![] : Fin 0 → Fin S1x8192.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x8192.size a
  hwx0_1 : ∀ i : grid0.Coords, EltTy.bits .f32 = 32 ∨ (Rect.block (s := S1x8192) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x8192.size a
  hwx0_3 : ∀ i : grid0.Coords, EltTy.bits .f32 = 32 ∨ (Rect.block (s := S8192x8192) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x8192.size a
  hwx0_4 : ∀ i : grid0.Coords, EltTy.bits .i32 = 32 ∨ (Rect.block (s := S1x8192) S1x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x8192.size a
  hwx0_5 : ∀ i : grid0.Coords, EltTy.bits .f32 = 32 ∨ (Rect.block (s := S1x8192) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x8192.size a
  hwx0_6 : ∀ i : grid0.Coords, EltTy.bits .f32 = 32 ∨ (Rect.block (s := S8192x8192) S512x2048.size (cc0_transform_6 i) (hinb0_6 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S512x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun _ => false | ⟨_ + 7, h⟩ => absurd h (Nat.not_lt.2 (Nat.le_add_left _ _))

class Facts : Prop extends Facts₀ where

variable [Facts]
-- ==== ReferenceIdeal.lean ====
abbrev S8192 : Shape := ⟨1, ![8192]⟩
abbrev S1x8192 : Shape := ⟨2, ![1, 8192]⟩
abbrev S8192x8192 : Shape := ⟨2, ![8192, 8192]⟩
abbrev S_ : Shape := ⟨0, ![]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192, .f32⟩
  | .hbm, ⟨1, _⟩ => ⟨S1x8192, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S1x8192, .f32⟩
  | .hbm, ⟨6, _⟩ => ⟨S1x8192, .f32⟩
  | .hbm, ⟨7, _⟩ => ⟨S_, .f32⟩
  | .hbm, ⟨8, _⟩ => ⟨S1x8192, .f32⟩
  | .hbm, ⟨9, _⟩ => ⟨S1x8192, .i1⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S1x8192, .f32⟩
  | .hbm, ⟨20, _⟩ => ⟨S1x8192, .f32⟩
  | .hbm, ⟨21, _⟩ => ⟨S1x8192, .f32⟩
  | .hbm, ⟨22, _⟩ => ⟨S_, .f32⟩
  | .hbm, ⟨23, _⟩ => ⟨S1x8192, .f32⟩
  | .hbm, ⟨24, _⟩ => ⟨S1x8192, .f32⟩
  | .hbm, ⟨25, _⟩ => ⟨S1x8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1x8192 : S_.BroadcastsInDim S1x8192 (![] : Fin 0 → Fin S1x8192.rank)
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  reducesTo_S8192x8192_S8192_d0 : S8192x8192.ReducesTo [0] S8192
  h_S_ : 0 < S_.numel
  bcast_S8192_S1x8192_1 : S8192.BroadcastsInDim S1x8192 (![1] : Fin 1 → Fin S1x8192.rank)

variable [Facts₀]

class Facts : Prop extends Facts₀ where

variable [Facts]
-- ==== Proof.Found.lean ====
/-
  What one run of the kernel body leaves behind, case by case, as terms over the blocks it was handed.

  The body always writes the tile of new synapse traces (a function of the spike column block, the synapse block and the
  weight block) and adds the tile's column sums into a running accumulator that lives across grid points. At the first
  row block of a column block it first stores zeros into the accumulator, so what it adds to is that zero row; at every
  other row block it adds to what the previous point left. At the last row block it also writes the fired bits (widened
  to 32-bit words) and the new voltages, the latter computed from the accumulator as just updated.
  Each statement below reads the one covering store of the buffer in question, with every load of a whole buffer read as
  that buffer's contents, and a load of the accumulator after a store into it read as what was stored.
-/
import proofs.«138355_j2894807957745_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

/-- A rank-2 rectangle's zero offsets, as the function that is zero everywhere. -/
theorem hz : (![0, 0] : Fin 2 → Nat) = fun _ => 0 := funext fun a => by fin_cases a <;> rfl

/-- First row block of a column block: the trace tile. -/
theorem trace_first (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S1x2048 .f32) (harg9 : arg9.IsWhole) (hc0 : cond0_0 i) (hc1 : ¬cond0_1 i)
    (x0 : Vec F S512x1 .f32) (x1 : Vec F S1x2048 .f32) (x2 : Vec F S512x2048 .f32) (x3 : Vec F S512x2048 .f32) :
    out0_A_6 c i arg2 harg2 arg3 harg3 arg4 harg4 arg5 harg5 arg6 harg6 arg7 harg7 arg8 harg8 arg9 harg9 hc0 hc1 x0 x1 x2 x3 = k0_pay2 x0 x2 x3 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3)]
  unfold kernelRun0_A
  dsimp only
  rw [View.canon_unit_zero (S := S512x2048) hz]
  simp only [View.readAt_eq_ld, harg2.read_unread, harg3.read_unread, harg4.read_unread, harg5.read_unread, harg9.read_unread,
    View.ld_unit_zero (S := S512x1) hz, View.ld_unit_zero (S := S512x2048) hz, View.ld_unit_zero (S := S1x2048) hz]

/-- First row block: the accumulator ends at the zero row plus the tile's column sums. -/
theorem acc_first (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S1x2048 .f32) (harg9 : arg9.IsWhole) (hc0 : cond0_0 i) (hc1 : ¬cond0_1 i)
    (x0 : Vec F S512x1 .f32) (x1 : Vec F S1x2048 .f32) (x2 : Vec F S512x2048 .f32) (x3 : Vec F S512x2048 .f32) :
    sout0_A_0 c i arg2 harg2 arg3 harg3 arg4 harg4 arg5 harg5 arg6 harg6 arg7 harg7 arg8 harg8 arg9 harg9 hc0 hc1 x0 x1 x2 x3 = k0_pay3 x0 x2 x3 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1x2048) hz, View.readCov_unit_zero (S := S1x2048) _ hz]
  simp only [View.readAt_eq_ld, harg2.read_unread, harg3.read_unread, harg4.read_unread, harg5.read_unread, harg9.read_unread,
    View.ld_unit_zero (S := S512x1) hz, View.ld_unit_zero (S := S512x2048) hz, View.ld_unit_zero (S := S1x2048) hz]

/-- A middle row block: the trace tile. -/
theorem trace_middle (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S1x2048 .f32) (harg9 : arg9.IsWhole) (hc0 : ¬cond0_0 i) (hc1 : ¬cond0_1 i)
    (x0 : Vec F S512x1 .f32) (x1 : Vec F S1x2048 .f32) (x2 : Vec F S512x2048 .f32) (x3 : Vec F S512x2048 .f32) (xs0 : Vec F S1x2048 .f32) :
    out0_B_6 c i arg2 harg2 arg3 harg3 arg4 harg4 arg5 harg5 arg6 harg6 arg7 harg7 arg8 harg8 arg9 harg9 hc0 hc1 x0 x1 x2 x3 xs0 = k0_pay2 x0 x2 x3 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 xs0)]
  unfold kernelRun0_B
  dsimp only
  rw [View.canon_unit_zero (S := S512x2048) hz]
  simp only [View.readAt_eq_ld, harg2.read_unread, harg3.read_unread, harg4.read_unread, harg5.read_unread, harg9.read_unread,
    View.ld_unit_zero (S := S512x1) hz, View.ld_unit_zero (S := S512x2048) hz, View.ld_unit_zero (S := S1x2048) hz]

/-- A middle row block: the accumulator ends at what the point before left plus the tile's column sums. -/
theorem acc_middle (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S1x2048 .f32) (harg9 : arg9.IsWhole) (hc0 : ¬cond0_0 i) (hc1 : ¬cond0_1 i)
    (x0 : Vec F S512x1 .f32) (x1 : Vec F S1x2048 .f32) (x2 : Vec F S512x2048 .f32) (x3 : Vec F S512x2048 .f32) (xs0 : Vec F S1x2048 .f32) :
    sout0_B_0 c i arg2 harg2 arg3 harg3 arg4 harg4 arg5 harg5 arg6 harg6 arg7 harg7 arg8 harg8 arg9 harg9 hc0 hc1 x0 x1 x2 x3 xs0 = k0_pay3 x0 x2 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0)]
  unfold kernelRun0_B
  dsimp only
  sl_unfold_words
  rw [View.canon_unit_zero (S := S1x2048) hz]
  simp only [View.readAt_eq_ld, harg2.read_unread, harg3.read_unread, harg4.read_unread, harg5.read_unread, harg9.read_unread,
    View.ld_unit_zero (S := S512x1) hz, View.ld_unit_zero (S := S512x2048) hz, View.ld_unit_zero (S := S1x2048) hz]

/-- The last row block: the trace tile. -/
theorem trace_last (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S1x2048 .f32) (harg9 : arg9.IsWhole) (hc0 : ¬cond0_0 i) (hc1 : cond0_1 i)
    (x0 : Vec F S512x1 .f32) (x1 : Vec F S1x2048 .f32) (x2 : Vec F S512x2048 .f32) (x3 : Vec F S512x2048 .f32) (xs0 : Vec F S1x2048 .f32) :
    out0_C_6 c i arg2 harg2 arg3 harg3 arg4 harg4 arg5 harg5 arg6 harg6 arg7 harg7 arg8 harg8 arg9 harg9 hc0 hc1 x0 x1 x2 x3 xs0 = k0_pay2 x0 x2 x3 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 xs0)]
  unfold kernelRun0_C
  dsimp only
  rw [View.canon_unit_zero (S := S512x2048) hz]
  simp only [View.readAt_eq_ld, harg2.read_unread, harg3.read_unread, harg4.read_unread, harg5.read_unread, harg9.read_unread,
    View.ld_unit_zero (S := S512x1) hz, View.ld_unit_zero (S := S512x2048) hz, View.ld_unit_zero (S := S1x2048) hz]

/-- The last row block: the accumulator, as at a middle block. -/
theorem acc_last (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S1x2048 .f32) (harg9 : arg9.IsWhole) (hc0 : ¬cond0_0 i) (hc1 : cond0_1 i)
    (x0 : Vec F S512x1 .f32) (x1 : Vec F S1x2048 .f32) (x2 : Vec F S512x2048 .f32) (x3 : Vec F S512x2048 .f32) (xs0 : Vec F S1x2048 .f32) :
    sout0_C_0 c i arg2 harg2 arg3 harg3 arg4 harg4 arg5 harg5 arg6 harg6 arg7 harg7 arg8 harg8 arg9 harg9 hc0 hc1 x0 x1 x2 x3 xs0 = k0_pay3 x0 x2 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero (S := S1x2048) hz]
  simp only [View.readAt_eq_ld, harg2.read_unread, harg3.read_unread, harg4.read_unread, harg5.read_unread, harg9.read_unread,
    View.ld_unit_zero (S := S512x1) hz, View.ld_unit_zero (S := S512x2048) hz, View.ld_unit_zero (S := S1x2048) hz]

/-- The last row block: the fired bits of the column block's voltages, as 32-bit words. -/
theorem fired_last (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S1x2048 .f32) (harg9 : arg9.IsWhole) (hc0 : ¬cond0_0 i) (hc1 : cond0_1 i)
    (x0 : Vec F S512x1 .f32) (x1 : Vec F S1x2048 .f32) (x2 : Vec F S512x2048 .f32) (x3 : Vec F S512x2048 .f32) (xs0 : Vec F S1x2048 .f32) :
    out0_C_4 c i arg2 harg2 arg3 harg3 arg4 harg4 arg5 harg5 arg6 harg6 arg7 harg7 arg8 harg8 arg9 harg9 hc0 hc1 x0 x1 x2 x3 xs0 = k0_pay7 x1 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0)]
  unfold kernelRun0_C
  dsimp only
  rw [View.canon_unit_zero (S := S1x2048) hz]
  simp only [View.readAt_eq_ld, harg2.read_unread, harg3.read_unread, harg4.read_unread, harg5.read_unread, harg9.read_unread,
    View.ld_unit_zero (S := S512x1) hz, View.ld_unit_zero (S := S512x2048) hz, View.ld_unit_zero (S := S1x2048) hz]

/-- The last row block: the new voltages, from the accumulator as this point updated it. -/
theorem voltage_last (c : Dev nD) (i : grid0.Coords) (arg2 : Memref sig .tc .vmem S512x1 .f32) (harg2 : arg2.IsWhole) (arg3 : Memref sig .tc .vmem S1x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .i32) (harg6 : arg6.IsWhole) (arg7 : Memref sig .tc .vmem S1x2048 .f32) (harg7 : arg7.IsWhole) (arg8 : Memref sig .tc .vmem S512x2048 .f32) (harg8 : arg8.IsWhole) (arg9 : Memref sig .tc .vmem S1x2048 .f32) (harg9 : arg9.IsWhole) (hc0 : ¬cond0_0 i) (hc1 : cond0_1 i)
    (x0 : Vec F S512x1 .f32) (x1 : Vec F S1x2048 .f32) (x2 : Vec F S512x2048 .f32) (x3 : Vec F S512x2048 .f32) (xs0 : Vec F S1x2048 .f32) :
    out0_C_5 c i arg2 harg2 arg3 harg3 arg4 harg4 arg5 harg5 arg6 harg6 arg7 harg7 arg8 harg8 arg9 harg9 hc0 hc1 x0 x1 x2 x3 xs0 = k0_pay6 x1 (k0_pay3 x0 x2 x3 xs0) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0)]
  unfold kernelRun0_C
  dsimp only
  sl_unfold_words
  rw [View.canon_unit_zero (S := S1x2048) hz, View.readCov_unit_zero (S := S1x2048) _ hz]
  simp only [View.readAt_eq_ld, harg2.read_unread, harg3.read_unread, harg4.read_unread, harg5.read_unread, harg9.read_unread,
    View.ld_unit_zero (S := S512x1) hz, View.ld_unit_zero (S := S512x2048) hz, View.ld_unit_zero (S := S1x2048) hz]

end Cert.KernelIdeal.Found

end
-- ==== Proof.Spec.lean ====
/-
  The layer's three results as functions of its four argument arrays, over the extended reals.

  With x the incoming spikes (8192), v the membrane voltages (1 x 8192), s the synapse traces and w the weights
  (8192 x 8192 each), and the two decay factors and the threshold kept as the 32-bit words both programs print:
    * the new trace at (R, C) is  s(R,C) * synDecay + w(R,C) * x(R);
    * a column fires when its decayed voltage  v(C) * volDecay  is at least the threshold;
    * the new voltage of column C is the decayed voltage plus the column sum of the new traces (a sum started from the
      zero word), minus the threshold where the column fired.
  A column sum over 8192 rows is the sum, over 16 consecutive row blocks, of the block's sum over its 512 rows: only
  commutativity and associativity of addition are used, so nothing here asks the entries to be finite.
  The indicator of a fired column is the one-bit word read as a number; widening that word to 32 bits and reading it
  signed gives the same number, and comparing the widened word with zero gives the bit back.
-/
import Idealize.ShloMosaic.PureOps.Ideal
import Idealize.ShloMosaic.PureOps.Ideal.Laws
import Idealize.ShloMosaic.Lib.ValueIdx

noncomputable section

namespace Cert.LeakyLayer

open Idealize.ShloMosaic Idealize.ShloMosaic.ValueIdx

abbrev ColVec : Type := (⟨1, ![8192]⟩ : Shape).Idx → EReal
abbrev RowVec : Type := (⟨2, ![1, 8192]⟩ : Shape).Idx → EReal
abbrev Mat : Type := (⟨2, ![8192, 8192]⟩ : Shape).Idx → EReal

/-- The synapse decay factor, the voltage decay factor, the threshold and the zero a sum starts from, each as the
    word both programs carry (equal words are never evaluated). -/
abbrev synDecay : EReal := Ideal.ofBits .f32 0x3F7AEE4D#32
abbrev volDecay : EReal := Ideal.ofBits .f32 0x3F7D73E8#32
abbrev thresh : EReal := Ideal.ofBits .f32 0x3F800000#32
abbrev zeroW : EReal := Ideal.ofBits .f32 0x00000000#32

/-- The new synapse trace at row `R`, column `C`. -/
def syn (x : ColVec) (s w : Mat) (R C : Fin 8192) : EReal :=
  s (ix2 R C) * synDecay + w (ix2 R C) * x (ix1 R)

/-- The sum of the new traces down column `C`. -/
def colSum (x : ColVec) (s w : Mat) (C : Fin 8192) : EReal := ∑ R : Fin 8192, syn x s w R C

/-- The decayed voltage of column `C`. -/
def decayed (v : RowVec) (C : Fin 8192) : EReal := v (ix2 (0 : Fin 1) C) * volDecay

/-- Whether column `C` fires: its decayed voltage is at least the threshold. -/
def fires (v : RowVec) (C : Fin 8192) : BitVec 1 :=
  FloatOps.cmpf (F := Ideal) (φ := .f32) .oge (decayed v C) thresh

/-- The new voltage of column `C`. -/
def nextVoltage (x : ColVec) (v : RowVec) (s w : Mat) (C : Fin 8192) : EReal :=
  decayed v C + (zeroW + colSum x s w C) - (((fires v C).toNat : ℝ) : EReal) * thresh

/-! ## Rows in 16 blocks of 512, columns in 4 blocks of 2048 -/

/-- Row `r` of row block `b`. -/
def rowOf (b : Fin 16) (r : Fin 512) : Fin 8192 := ⟨b.val * 512 + r.val, by omega⟩
/-- Column `q` of column block `j`. -/
def colOf (j : Fin 4) (q : Fin 2048) : Fin 8192 := ⟨j.val * 2048 + q.val, by omega⟩

/-- The sum of the new traces of column `C` over the 512 rows of row block `b`. -/
def blockSum (x : ColVec) (s w : Mat) (b : Fin 16) (C : Fin 8192) : EReal := ∑ r : Fin 512, syn x s w (rowOf b r) C

/-- A sum over the 8192 rows is the sum over the 16 row blocks of each block's sum over its 512 rows. -/
theorem sum_rowBlocks (f : Fin 8192 → EReal) : ∑ b : Fin 16, ∑ r : Fin 512, f (rowOf b r) = ∑ R : Fin 8192, f R := by
  rw [← Fintype.sum_prod_type']
  exact Fintype.sum_equiv (finProdFinEquiv (m := 16) (n := 512)) _ _ fun p =>
    congrArg f (Fin.ext (by
      show p.1.val * 512 + p.2.val = p.2.val + 512 * p.1.val
      omega))

theorem sum_blockSum (x : ColVec) (s w : Mat) (C : Fin 8192) : ∑ b : Fin 16, blockSum x s w b C = colSum x s w C :=
  sum_rowBlocks fun R => syn x s w R C

/-! ## The fired bit as a number, and back -/

/-- The one-bit word widened to 32 bits and read signed is the bit read as a natural number. -/
theorem toInt_setWidth_bit : ∀ b : BitVec 1, (b.setWidth 32).toInt = (b.toNat : ℤ) := by decide

/-- So the two conversions of the fired bit to a number agree. -/
theorem signed_wide_eq_unsigned (b : BitVec 1) : (((b.setWidth 32).toInt : ℝ) : EReal) = ((b.toNat : ℝ) : EReal) := by
  rw [toInt_setWidth_bit b, Int.cast_natCast]

/-- The widened bit differs from zero exactly when the bit is set. -/
theorem ne_zero_setWidth_bit : ∀ b : BitVec 1, IntOp.cmpi .ne (b.setWidth 32) 0#32 = b := by decide

end Cert.LeakyLayer

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.Tile.lean ====
/-
  The body's arithmetic, one entry at a time, over the extended reals.

  At row r and column q of a tile: the new trace is the synapse entry times the decay factor plus the weight entry times
  the row's spike (the spike block is one column, so the entry does not depend on q). The accumulator row gains, at
  column q, the sum of the tile's column q over its 512 rows. The new voltage at column q is the decayed voltage plus the
  accumulator minus the threshold where the column fired, the fired bit having been widened to a 32-bit word and read as
  a signed number, which is the bit read as a number. The fired word itself is the widened bit.
-/
import proofs.«138355_j2894807957745_2_alg».proof.Proof.Gen.KernelIdeal.Skeleton
import proofs.«138355_j2894807957745_2_alg».proof.Proof.Spec
import proofs.«138355_j2894807957745_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Tile

open Cert.KernelIdeal Cert.KernelIdeal.Gen Cert.LeakyLayer

/-- The new trace at row `r`, column `q` of a tile. -/
theorem trace_apply (x0 : FVec Ideal S512x1 .f32) (x2 x3 : FVec Ideal S512x2048 .f32) (r : Fin 512) (q : Fin 2048) :
    k0_pay2 (F := Ideal) x0 x2 x3 (ix2 r q) = x2 (ix2 r q) * synDecay + x3 (ix2 r q) * x0 (ix2 r (0 : Fin 1)) := by
  have e : broadcastTo S512x2048 (shapeCast S512x1 x0 shapeCasts_S512x1_S512x1) broadcasts_S512x1_S512x2048 (ix2 r q)
      = x0 (ix2 r (0 : Fin 1)) := by
    rw [shapeCast_self]
    exact Cert.LibColumn.broadcastTo_a1_ab_apply x0 _ r q
  unfold k0_pay2
  show x2 (ix2 r q) * synDecay
      + x3 (ix2 r q) * broadcastTo S512x2048 (shapeCast S512x1 x0 shapeCasts_S512x1_S512x1) broadcasts_S512x1_S512x2048 (ix2 r q) = _
  rw [e]

/-- The sums of a tile's columns over its 512 rows, kept as a one-row array: at column `q` the sum of column `q`. -/
theorem keptColumnSums_apply (v : FVec Ideal S512x2048 .f32) (u : Fin 1) (q : Fin 2048) :
    shapeCast S1x2048 (multiReduction .add [0] S2048 v 0x00000000#32 reduces_S512x2048_S2048 (.inl rfl) rfl)
        shapeCasts_S2048_S1x2048 (ix2 u q)
      = ∑ r : Fin 512, v (ix2 r q) := by
  refine (shapeCast_a_1a_apply _ shapeCasts_S2048_S1x2048 u q).trans ?_
  refine (Ideal.multiReduction_add_single v 0x00000000#32 reduces_S512x2048_S2048 (.inl rfl) rfl (ix1 q)).trans ?_
  refine Finset.sum_congr rfl fun r _ => congrArg v ?_
  funext a
  apply Fin.ext
  match a with
  | ⟨0, _⟩ => rfl
  | ⟨1, _⟩ => rfl

/-- The accumulator row after a tile: what it held plus the tile's column sums. -/
theorem acc_apply (x0 : FVec Ideal S512x1 .f32) (x2 x3 : FVec Ideal S512x2048 .f32) (acc : FVec Ideal S1x2048 .f32)
    (u : Fin 1) (q : Fin 2048) :
    k0_pay3 (F := Ideal) x0 x2 x3 acc (ix2 u q)
      = acc (ix2 u q) + ∑ r : Fin 512, k0_pay2 (F := Ideal) x0 x2 x3 (ix2 r q) := by
  unfold k0_pay3
  refine (congrFun (shapeCast_self _ shapeCasts_S1x2048_S1x2048) (ix2 u q)).trans ?_
  exact congrArg (acc (ix2 u q) + ·) (keptColumnSums_apply (k0_pay2 (F := Ideal) x0 x2 x3) u q)

/-- The row of zeros the accumulator is reset to. -/
theorem zeros_apply (i : S1x2048.Idx) : k0_pay1 (F := Ideal) i = zeroW := by
  unfold k0_pay1
  exact congrFun (shapeCast_self _ shapeCasts_S1x2048_S1x2048) i

/-- The fired bit of a column, from the column's voltage. -/
def firedBit (v : EReal) : BitVec 1 := FloatOps.cmpf (F := Ideal) (φ := .f32) .oge (v * volDecay) thresh

/-- The fired word at column `q`: the fired bit widened to 32 bits. -/
theorem firedWord_apply (x1 : FVec Ideal S1x2048 .f32) (u : Fin 1) (q : Fin 2048) :
    k0_pay7 (F := Ideal) x1 (ix2 u q) = (firedBit (x1 (ix2 u q))).setWidth 32 := by
  unfold k0_pay7 k0_pay5 k0_pay4
  rfl

/-- The new voltage at column `q`. -/
theorem voltage_apply (x1 acc : FVec Ideal S1x2048 .f32) (u : Fin 1) (q : Fin 2048) :
    k0_pay6 (F := Ideal) x1 acc (ix2 u q)
      = x1 (ix2 u q) * volDecay + acc (ix2 u q) - (((firedBit (x1 (ix2 u q))).toNat : ℝ) : EReal) * thresh := by
  unfold k0_pay6 k0_pay5 k0_pay4
  show x1 (ix2 u q) * volDecay + acc (ix2 u q)
      - ((((firedBit (x1 (ix2 u q))).setWidth 32).toInt : ℝ) : EReal) * thresh = _
  rw [signed_wide_eq_unsigned]

end Cert.KernelIdeal.Tile

end
-- ==== Proof.Blocks.lean ====
/-
  Which entries of the whole arrays a grid point's blocks hold.

  The grid has 64 points; point n works on row block n mod 16 and column block n div 16 (the row block moves fastest).
  There the spike window holds rows 512*(n mod 16) ... of the spikes viewed as one column, the voltage window columns
  2048*(n div 16) ... of the voltages, and the synapse and weight windows the corresponding 512 x 2048 tile. An entry of a
  block sits, on each axis, at the block's index times the block's size plus the entry's own coordinate.
  The spikes reach the kernel reshaped from a vector into one column: entry (R, 0) of the column is entry R of the vector.
  Put together: the trace tile the body computes at point n is the new trace at the tile's global rows and columns.
-/
import proofs.«138355_j2894807957745_2_alg».proof.Proof.Gen.KernelIdeal.Frame
import proofs.«138355_j2894807957745_2_alg».proof.Proof.Spec
import proofs.«138355_j2894807957745_2_alg».proof.Proof.LibColumn
import proofs.«138355_j2894807957745_2_alg».proof.Proof.Tile
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.LeakyLayer

/-- The row block and the column block grid point `n` works on. -/
def rowBlock (n : ℕ) : Fin 16 := ⟨n % 16, Nat.mod_lt _ (by decide)⟩
def colBlock (n : ℕ) : Fin 4 := ⟨n / 16 % 4, Nat.mod_lt _ (by decide)⟩

/-- The printed index maps, decided once over the grid: row-tiled windows sit at row block `n mod 16`, column-tiled
    ones at column block `n div 16`, and a window with one block along an axis at block 0 there. -/
theorem index_facts : ∀ t : Fin cfg0.N,
    win0_0.index t (0 : Fin 2) = t.val % 16 ∧ win0_0.index t (1 : Fin 2) = 0
    ∧ win0_1.index t (0 : Fin 2) = 0 ∧ win0_1.index t (1 : Fin 2) = t.val / 16 % 4
    ∧ win0_2.index t (0 : Fin 2) = t.val % 16 ∧ win0_2.index t (1 : Fin 2) = t.val / 16 % 4
    ∧ win0_3.index t (0 : Fin 2) = t.val % 16 ∧ win0_3.index t (1 : Fin 2) = t.val / 16 % 4
    ∧ win0_4.index t (0 : Fin 2) = 0 ∧ win0_4.index t (1 : Fin 2) = t.val / 16 % 4
    ∧ win0_5.index t (0 : Fin 2) = 0 ∧ win0_5.index t (1 : Fin 2) = t.val / 16 % 4
    ∧ win0_6.index t (0 : Fin 2) = t.val % 16 ∧ win0_6.index t (1 : Fin 2) = t.val / 16 % 4 :=
  (by decide +kernel : ∀ t : Fin grid0.N, _)

variable {F : FTy → Type} [FloatOps F]
variable (m : (ℓ : Loc nD τ sig) → Buf (Elt F) ℓ)

/-- The spike window's block at a point: rows of the spike column. -/
theorem spikeBlock_apply (c : Dev nD) (t : Fin cfg0.N) (r : Fin 512) (u : Fin 1) :
    (iblk m c 0 t : Vec F S512x1 .f32) (ix2 r u)
      = V m c main_v0 (ix2 (rowOf (rowBlock t.val) r) (0 : Fin 1) : S8192x1.Idx) := by
  obtain ⟨e0, e1, -⟩ := index_facts t
  show V m c main_v0 (((cfg0.win 0).blk t).view.emb (ix2 r u)) = _
  refine congrArg (V m c main_v0) ?_
  funext a
  apply Fin.ext
  match a with
  | ⟨0, _⟩ => show win0_0.index t (0 : Fin 2) * 512 + 1 * r.val = t.val % 16 * 512 + r.val; rw [e0]; omega
  | ⟨1, _⟩ => show win0_0.index t (1 : Fin 2) * 1 + 1 * u.val = 0; rw [e1]; omega

/-- The voltage window's block at a point: columns of the voltage row. -/
theorem voltageBlock_apply (c : Dev nD) (t : Fin cfg0.N) (u : Fin 1) (q : Fin 2048) :
    (iblk m c 1 t : Vec F S1x2048 .f32) (ix2 u q)
      = V m c main_arg1 (ix2 (0 : Fin 1) (colOf (colBlock t.val) q) : S1x8192.Idx) := by
  obtain ⟨-, -, e0, e1, -⟩ := index_facts t
  show V m c main_arg1 (((cfg0.win 1).blk t).view.emb (ix2 u q)) = _
  refine congrArg (V m c main_arg1) ?_
  funext a
  apply Fin.ext
  match a with
  | ⟨0, _⟩ => show win0_1.index t (0 : Fin 2) * 1 + 1 * u.val = 0; rw [e0]; omega
  | ⟨1, _⟩ => show win0_1.index t (1 : Fin 2) * 2048 + 1 * q.val = t.val / 16 % 4 * 2048 + q.val; rw [e1]; omega

/-- The synapse window's block at a point: a tile of the synapse traces. -/
theorem synapseBlock_apply (c : Dev nD) (t : Fin cfg0.N) (r : Fin 512) (q : Fin 2048) :
    (iblk m c 2 t : Vec F S512x2048 .f32) (ix2 r q)
      = V m c main_arg2 (ix2 (rowOf (rowBlock t.val) r) (colOf (colBlock t.val) q) : S8192x8192.Idx) := by
  obtain ⟨-, -, -, -, e0, e1, -⟩ := index_facts t
  show V m c main_arg2 (((cfg0.win 2).blk t).view.emb (ix2 r q)) = _
  refine congrArg (V m c main_arg2) ?_
  funext a
  apply Fin.ext
  match a with
  | ⟨0, _⟩ => show win0_2.index t (0 : Fin 2) * 512 + 1 * r.val = t.val % 16 * 512 + r.val; rw [e0]; omega
  | ⟨1, _⟩ => show win0_2.index t (1 : Fin 2) * 2048 + 1 * q.val = t.val / 16 % 4 * 2048 + q.val; rw [e1]; omega

/-- The weight window's block at a point: the same tile of the weights. -/
theorem weightBlock_apply (c : Dev nD) (t : Fin cfg0.N) (r : Fin 512) (q : Fin 2048) :
    (iblk m c 3 t : Vec F S512x2048 .f32) (ix2 r q)
      = V m c main_arg3 (ix2 (rowOf (rowBlock t.val) r) (colOf (colBlock t.val) q) : S8192x8192.Idx) := by
  obtain ⟨-, -, -, -, -, -, e0, e1, -⟩ := index_facts t
  show V m c main_arg3 (((cfg0.win 3).blk t).view.emb (ix2 r q)) = _
  refine congrArg (V m c main_arg3) ?_
  funext a
  apply Fin.ext
  match a with
  | ⟨0, _⟩ => show win0_3.index t (0 : Fin 2) * 512 + 1 * r.val = t.val % 16 * 512 + r.val; rw [e0]; omega
  | ⟨1, _⟩ => show win0_3.index t (1 : Fin 2) * 2048 + 1 * q.val = t.val / 16 % 4 * 2048 + q.val; rw [e1]; omega

/-- The spikes as the region finds them: the vector reshaped into one column, entry (R, 0) the vector's entry R. -/
theorem spikeColumn_apply (c : Dev nD) (R : Fin 8192) (u : Fin 1) :
    V m c main_v0 (ix2 R u : S8192x1.Idx) = m ((c : Thread nD τ).loc main_arg0) (ix1 R) := by
  have e : (V m c main_v0 : S8192x1.Idx → Elt F .f32)
      = shapeCast S8192x1 (m ((c : Thread nD τ).loc main_arg0)) shapeCasts_S8192_S8192x1 := by
    show StableHlo.after hostOps0 (fun b => m (c, b)) (Proc.devRef .tc main_v0) = _
    after_results
    rfl
  rw [e]
  exact Cert.LibColumn.shapeCast_a_a1_apply _ _ R u

end Cert.KernelIdeal.Blocks

/-! ## The trace tile at a point, in the arrays' own coordinates -/

namespace Cert.KernelIdeal.Blocks

open Cert.KernelIdeal Cert.KernelIdeal.Gen Cert.LeakyLayer

variable (m : (ℓ : Loc nD τ sig) → Buf (Elt Ideal) ℓ)

/-- The trace tile the body computes at point `t` holds, at (r, q), the new trace at the tile's row and column. -/
theorem traceTile_apply (c : Dev nD) (t : Fin cfg0.N) (r : Fin 512) (q : Fin 2048) :
    k0_pay2 (F := Ideal) (iblk m c 0 t) (iblk m c 2 t) (iblk m c 3 t) (ix2 r q)
      = syn (m ((c : Thread nD τ).loc main_arg0)) (m ((c : Thread nD τ).loc main_arg2)) (m ((c : Thread nD τ).loc main_arg3))
          (rowOf (rowBlock t.val) r) (colOf (colBlock t.val) q) := by
  refine (Tile.trace_apply (iblk m c 0 t) (iblk m c 2 t) (iblk m c 3 t) r q).trans ?_
  rw [synapseBlock_apply m c t r q, weightBlock_apply m c t r q, spikeBlock_apply m c t r (0 : Fin 1),
    spikeColumn_apply m c _ (0 : Fin 1), V_main_arg2, V_main_arg3]
  rfl

end Cert.KernelIdeal.Blocks

end
-- ==== Proof.Acc.lean ====
/-
  The running column sums across a column block's 16 grid points.

  Within one column block the grid visits row blocks 0, 1, ..., 15 in order. The accumulator row is reset at row block 0
  to the zero row plus that tile's column sums, and at each later row block gains that tile's column sums. So after the
  point of row block i it holds, at column q, the zero word plus the sum over row blocks 0..i of the block's sum down
  column q; after row block 15 that is the zero word plus the sum down the whole column of 8192 new traces.
  The statement is an induction along the run of points, never an enumeration of the grid.
-/
import proofs.«138355_j2894807957745_2_alg».proof.Proof.Found
import proofs.«138355_j2894807957745_2_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.LeakyLayer Cert.KernelIdeal.Blocks

variable (m : (ℓ : Loc nD τ sig) → Buf (Elt Ideal) ℓ)

/-- The accumulator row after grid point `n`. -/
def accAfter (c : Dev nD) (n : ℕ) (h : n < cfg0.N) : Vec Ideal S1x2048 .f32 := (outsAt0 m c n h).2.2.2

/-- One point's update of the accumulator row `acc`: it gains the column sums of the point's trace tile. -/
def step (c : Dev nD) (n : ℕ) (h : n < cfg0.N) (acc : Vec Ideal S1x2048 .f32) : Vec Ideal S1x2048 .f32 :=
  k0_pay3 (F := Ideal) (iblk m c 0 ⟨n, h⟩) (iblk m c 2 ⟨n, h⟩) (iblk m c 3 ⟨n, h⟩) acc

/-- The update from the zero row: what a column block's first point leaves. -/
def reset (c : Dev nD) (n : ℕ) (h : n < cfg0.N) : Vec Ideal S1x2048 .f32 := step m c n h (k0_pay1 (F := Ideal))

/-- At the first row block of a column block the accumulator is reset. -/
theorem accAfter_reset (c : Dev nD) (n : ℕ) (h : n < cfg0.N) (h0 : n % 16 = 0) : accAfter m c n h = reset m c n h := by
  have h1 : ¬ n % 16 = 15 := by omega
  unfold accAfter reset step
  rw [outsAt0_A m c ⟨n, h⟩ h0 h1]
  dsimp only
  exact Found.acc_first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

/-- At every other row block it steps from what the point before left. -/
theorem accAfter_step (c : Dev nD) (n : ℕ) (h : n + 1 < cfg0.N) (h0 : ¬(n + 1) % 16 = 0) :
    accAfter m c (n + 1) h = step m c (n + 1) h (accAfter m c n (Nat.lt_of_succ_lt h)) := by
  unfold accAfter step
  by_cases h1 : (n + 1) % 16 = 15
  · rw [outsAt0_C m c ⟨n + 1, h⟩ h0 h1]
    dsimp only
    exact Found.acc_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) _
  · rw [outsAt0_B m c ⟨n + 1, h⟩ h0 h1]
    dsimp only
    exact Found.acc_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) _

/-- One update at an entry: the old entry plus the sum, over the point's row block, of the new traces of the column. -/
theorem step_apply (c : Dev nD) (n : ℕ) (h : n < cfg0.N) (acc : Vec Ideal S1x2048 .f32) (u : Fin 1) (q : Fin 2048) :
    step m c n h acc (ix2 u q)
      = acc (ix2 u q) + blockSum (m ((c : Thread nD τ).loc main_arg0)) (m ((c : Thread nD τ).loc main_arg2))
          (m ((c : Thread nD τ).loc main_arg3)) (rowBlock n) (colOf (colBlock n) q) := by
  refine (Tile.acc_apply (iblk m c 0 ⟨n, h⟩) (iblk m c 2 ⟨n, h⟩) (iblk m c 3 ⟨n, h⟩) acc u q).trans ?_
  exact congrArg (acc (ix2 u q) + ·) (Finset.sum_congr rfl fun r _ => traceTile_apply m c ⟨n, h⟩ r q)

/-- Point `n`'s addend to the accumulator row, as a function of every natural number (its values past the grid are
    never used). -/
def addend (c : Dev nD) (n : ℕ) (i : S1x2048.Idx) : EReal :=
  blockSum (m ((c : Thread nD τ).loc main_arg0)) (m ((c : Thread nD τ).loc main_arg2))
    (m ((c : Thread nD τ).loc main_arg3)) (rowBlock n) (colOf (colBlock n) (i 1))

/-- After the last row block of column block `j` the accumulator holds, at column `q`, the zero word plus the sum down
    the whole column. -/
theorem accAfter_last (c : Dev nD) (j : ℕ) (h : 16 * j + 15 < cfg0.N) (u : Fin 1) (q : Fin 2048) :
    accAfter m c (16 * j + 15) h (ix2 u q)
      = zeroW + colSum (m ((c : Thread nD τ).loc main_arg0)) (m ((c : Thread nD τ).loc main_arg2))
          (m ((c : Thread nD τ).loc main_arg3)) (colOf (colBlock (16 * j + 15)) q) := by
  rw [Pipeline.eq_accAt (accAfter m c) 16 (reset m c) (step m c) (accAfter_reset m c) (accAfter_step m c) j 15 (by decide) h]
  rw [Pipeline.accAt_add_apply (reset m c) (step m c) (fun _ => zeroW) (addend m c) (16 * j) 15
    (fun hb i => by
      obtain ⟨u', q', rfl⟩ : ∃ (u' : Fin 1) (q' : Fin 2048), i = ix2 u' q' := ⟨i 0, i 1, eq_ix2 i⟩
      exact (step_apply m c (16 * j) hb _ u' q').trans (congrArg (· + _) (Tile.zeros_apply _)))
    (fun n hn a i _ _ => by
      obtain ⟨u', q', rfl⟩ : ∃ (u' : Fin 1) (q' : Fin 2048), i = ix2 u' q' := ⟨i 0, i 1, eq_ix2 i⟩
      exact step_apply m c n hn a u' q')
    15 le_rfl h (ix2 u q)]
  refine congrArg (zeroW + ·) ?_
  rw [Finset.sum_range]
  refine (Finset.sum_congr rfl fun s _ => ?_).trans
    (sum_blockSum (m ((c : Thread nD τ).loc main_arg0)) (m ((c : Thread nD τ).loc main_arg2))
      (m ((c : Thread nD τ).loc main_arg3)) (colOf (colBlock (16 * j + 15)) q))
  have hs : s.val < 16 := s.isLt
  have er : rowBlock (16 * j + s.val) = s := Fin.ext (by show (16 * j + s.val) % 16 = s.val; omega)
  have ec : colBlock (16 * j + s.val) = colBlock (16 * j + 15) :=
    Fin.ext (by show (16 * j + s.val) / 16 % 4 = (16 * j + 15) / 16 % 4; omega)
  show blockSum _ _ _ (rowBlock (16 * j + s.val)) (colOf (colBlock (16 * j + s.val)) q) = _
  rw [er, ec]

/-- The same, named by the point: at a point of the last row block. -/
theorem accAfter_of_last (c : Dev nD) (t : Fin cfg0.N) (h15 : t.val % 16 = 15) (u : Fin 1) (q : Fin 2048) :
    accAfter m c t.val t.isLt (ix2 u q)
      = zeroW + colSum (m ((c : Thread nD τ).loc main_arg0)) (m ((c : Thread nD τ).loc main_arg2))
          (m ((c : Thread nD τ).loc main_arg3)) (colOf (colBlock t.val) q) := by
  have same : ∀ (n : ℕ) (hn : n < cfg0.N), n = t.val →
      accAfter m c n hn (ix2 u q) = zeroW + colSum (m ((c : Thread nD τ).loc main_arg0)) (m ((c : Thread nD τ).loc main_arg2))
          (m ((c : Thread nD τ).loc main_arg3)) (colOf (colBlock n) q) →
      accAfter m c t.val t.isLt (ix2 u q) = zeroW + colSum (m ((c : Thread nD τ).loc main_arg0)) (m ((c : Thread nD τ).loc main_arg2))
          (m ((c : Thread nD τ).loc main_arg3)) (colOf (colBlock t.val) q) := fun n hn e hh => by subst e; exact hh
  have e : 16 * (t.val / 16) + 15 = t.val := by omega
  have hlt : 16 * (t.val / 16) + 15 < cfg0.N := by rw [e]; exact t.isLt
  exact same (16 * (t.val / 16) + 15) hlt e (accAfter_last m c (t.val / 16) hlt u q)

end Cert.KernelIdeal.Acc

end
-- ==== Proof.Results.lean ====
/-
  The three results as whole arrays: the fired bits and the new voltages along the one row of 8192 columns, and the new
  synapse traces over the 8192 x 8192 grid. Each entry depends on the index only through its column (and, for the traces,
  its row).
-/
import proofs.«138355_j2894807957745_2_alg».proof.Proof.Spec

noncomputable section

namespace Cert.LeakyLayer

open Idealize.ShloMosaic Idealize.ShloMosaic.ValueIdx

/-- The fired bits, one per column. -/
def firedArr (v : RowVec) : (⟨2, ![1, 8192]⟩ : Shape).Idx → BitVec 1 := fun i => fires v (i 1)

/-- The fired bits as the kernel stores them: each widened to a 32-bit word. -/
def firedWordArr (v : RowVec) : (⟨2, ![1, 8192]⟩ : Shape).Idx → BitVec 32 := fun i => (fires v (i 1)).setWidth 32

/-- The new voltages, one per column. -/
def voltageArr (x : ColVec) (v : RowVec) (s w : Mat) : RowVec := fun i => nextVoltage x v s w (i 1)

/-- The new synapse traces. -/
def synArr (x : ColVec) (s w : Mat) : Mat := fun i => syn x s w (i 0) (i 1)

end Cert.LeakyLayer

end
-- ==== Proof.Arrays.lean ====
/-
  The kernel's three output arrays after the run.

  The trace window is written back at every grid point: block (n mod 16, n div 16) of the trace array receives the tile
  the body computed there, which is the new traces at the tile's rows and columns; the 64 tiles cover the array. The
  fired-word and voltage windows are written back only at the last row block of each column block: block (0, n div 16)
  of each receives the 2048 fired words, respectively the 2048 new voltages computed from the accumulator, which by then
  holds the zero word plus the whole column sums; the four column blocks cover the row.
  An entry of a window's block sits, on each axis, at the block's index times the block's size plus its own coordinate,
  and an index of an array lies in the block whose index is its coordinate divided by the block's size.
-/
import proofs.«138355_j2894807957745_2_alg».proof.Proof.Acc
import proofs.«138355_j2894807957745_2_alg».proof.Proof.Results

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.LeakyLayer Cert.KernelIdeal.Blocks Cert.KernelIdeal.Acc

variable (m : (ℓ : Loc nD τ sig) → Buf (Elt Ideal) ℓ)

/-! ## What the body leaves in each output's staging buffer -/

/-- After any point the trace buffer holds the point's trace tile. -/
theorem traceAfter (c : Dev nD) (t : Fin cfg0.N) :
    (outsAt0 m c t.val t.isLt).2.2.1 = k0_pay2 (F := Ideal) (iblk m c 0 t) (iblk m c 2 t) (iblk m c 3 t) := by
  by_cases h0 : t.val % 16 = 0
  · have h1 : ¬ t.val % 16 = 15 := by omega
    rw [outsAt0_A m c t h0 h1]
    dsimp only
    exact Found.trace_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun hh => h1 ((hcond0_1 t).mp hh)) (iblk m c 0 t) (iblk m c 1 t) (iblk m c 2 t) (iblk m c 3 t)
  · by_cases h1 : t.val % 16 = 15
    · rw [outsAt0_C m c t h0 h1]
      dsimp only
      exact Found.trace_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) _
    · rw [outsAt0_B m c t h0 h1]
      dsimp only
      exact Found.trace_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) (fun hh => h1 ((hcond0_1 t).mp hh)) (iblk m c 0 t) (iblk m c 1 t) (iblk m c 2 t) (iblk m c 3 t) _

/-- After a point of the last row block the accumulator is the step of what the point before left ... -/
theorem accAfter_lastStep (c : Dev nD) (t : Fin cfg0.N) (h1 : t.val % 16 = 15) :
    accAfter m c t.val t.isLt
      = k0_pay3 (F := Ideal) (iblk m c 0 t) (iblk m c 2 t) (iblk m c 3 t)
          (outsAt0 m c (t.val - 1) (Nat.lt_of_le_of_lt (Nat.sub_le _ _) t.isLt)).2.2.2 := by
  have h0 : ¬ t.val % 16 = 0 := by omega
  unfold accAfter
  rw [outsAt0_C m c t h0 h1]
  dsimp only
  exact Found.acc_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) _

/-- ... the voltage buffer holds the new voltages computed from that accumulator ... -/
theorem voltageAfter (c : Dev nD) (t : Fin cfg0.N) (h1 : t.val % 16 = 15) :
    (outsAt0 m c t.val t.isLt).2.1 = k0_pay6 (F := Ideal) (iblk m c 1 t) (accAfter m c t.val t.isLt) := by
  have h0 : ¬ t.val % 16 = 0 := by omega
  rw [accAfter_lastStep m c t h1, outsAt0_C m c t h0 h1]
  dsimp only
  exact Found.voltage_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) _

/-- ... and the fired-word buffer the fired words of the column block's voltages. -/
theorem firedAfter (c : Dev nD) (t : Fin cfg0.N) (h1 : t.val % 16 = 15) :
    (outsAt0 m c t.val t.isLt).1 = k0_pay7 (F := Ideal) (iblk m c 1 t) := by
  have h0 : ¬ t.val % 16 = 0 := by omega
  rw [outsAt0_C m c t h0 h1]
  dsimp only
  exact Found.fired_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h1) (iblk m c 0 t) (iblk m c 1 t) (iblk m c 2 t) (iblk m c 3 t) _

/-! ## The new traces -/

/-- What point `t` writes back to the trace array is its block of the new traces. -/
theorem trace_flushed (c : Dev nD) (t : Fin cfg0.N) :
    (dats m 0 c).flushed 6 t = ((cfg0.win 6).blk t).view.read (Elt Ideal) (synArr (m ((c : Thread nD τ).loc main_arg0)) (m ((c : Thread nD τ).loc main_arg2)) (m ((c : Thread nD τ).loc main_arg3))) := by
  show (cfg0.win 6).cut (grid0.coords t) ((dats m 0 c).after 6 t) = _
  rw [after0_6, traceAfter]
  obtain ⟨-, -, -, -, -, -, -, -, -, -, -, -, e0, e1⟩ := index_facts t
  refine funext fun (y : S512x2048.Idx) => ?_
  obtain ⟨r, q, rfl⟩ : ∃ (r : Fin 512) (q : Fin 2048), y = ix2 r q := ⟨y 0, y 1, eq_ix2 y⟩
  show k0_pay2 (F := Ideal) (iblk m c 0 t) (iblk m c 2 t) (iblk m c 3 t) (ix2 r q)
      = synArr (m ((c : Thread nD τ).loc main_arg0)) (m ((c : Thread nD τ).loc main_arg2)) (m ((c : Thread nD τ).loc main_arg3)) (((cfg0.win 6).blk t).view.emb (ix2 r q))
  rw [traceTile_apply m c t r q]
  have eR : ((((cfg0.win 6).blk t).view.emb (ix2 r q)) 0 : Fin 8192) = rowOf (rowBlock t.val) r :=
    Fin.ext (by show win0_6.index t (0 : Fin 2) * 512 + 1 * r.val = t.val % 16 * 512 + r.val; rw [e0]; omega)
  have eC : ((((cfg0.win 6).blk t).view.emb (ix2 r q)) 1 : Fin 8192) = colOf (colBlock t.val) q :=
    Fin.ext (by show win0_6.index t (1 : Fin 2) * 2048 + 1 * q.val = t.val / 16 % 4 * 2048 + q.val; rw [e1]; omega)
  show _ = syn (m ((c : Thread nD τ).loc main_arg0)) (m ((c : Thread nD τ).loc main_arg2)) (m ((c : Thread nD τ).loc main_arg3)) ((((cfg0.win 6).blk t).view.emb (ix2 r q)) 0) ((((cfg0.win 6).blk t).view.emb (ix2 r q)) 1)
  rw [eR, eC]

/-- Every index of the trace array is in the block of the point of its row block and column block. -/
theorem trace_cover (i : S8192x8192.Idx) :
    ∃ t : Fin cfg0.N, (cfg0.win 6).flush t = true ∧ i ∈ ((cfg0.win 6).blk t).view.set := by
  have hi0 : (i 0).val < 8192 := (i 0).isLt
  have hi1 : (i 1).val < 8192 := (i 1).isLt
  have hN : cfg0.N = 64 := N_0
  have hlt : (i 1).val / 2048 * 16 + (i 0).val / 512 < cfg0.N := by rw [hN]; omega
  refine ⟨⟨(i 1).val / 2048 * 16 + (i 0).val / 512, hlt⟩, flush0_6 _, ?_⟩
  obtain ⟨-, -, -, -, -, -, -, -, -, -, -, -, e0, e1⟩ := index_facts ⟨(i 1).val / 2048 * 16 + (i 0).val / 512, hlt⟩
  show i ∈ ((View.whole main_v1_2).slice (win0_6.rect ⟨(i 1).val / 2048 * 16 + (i 0).val / 512, hlt⟩)).set
  rw [View.set_slice_whole, Rect.mem_set_unit]
  intro a
  match a with
  | ⟨0, _⟩ =>
    show win0_6.index ⟨(i 1).val / 2048 * 16 + (i 0).val / 512, hlt⟩ (0 : Fin 2) * 512 ≤ (i 0).val
      ∧ (i 0).val < win0_6.index ⟨(i 1).val / 2048 * 16 + (i 0).val / 512, hlt⟩ (0 : Fin 2) * 512 + 512
    rw [e0]; show ((i 1).val / 2048 * 16 + (i 0).val / 512) % 16 * 512 ≤ (i 0).val ∧ (i 0).val < ((i 1).val / 2048 * 16 + (i 0).val / 512) % 16 * 512 + 512
    omega
  | ⟨1, _⟩ =>
    show win0_6.index ⟨(i 1).val / 2048 * 16 + (i 0).val / 512, hlt⟩ (1 : Fin 2) * 2048 ≤ (i 1).val
      ∧ (i 1).val < win0_6.index ⟨(i 1).val / 2048 * 16 + (i 0).val / 512, hlt⟩ (1 : Fin 2) * 2048 + 2048
    rw [e1]; show ((i 1).val / 2048 * 16 + (i 0).val / 512) / 16 % 4 * 2048 ≤ (i 1).val ∧ (i 1).val < ((i 1).val / 2048 * 16 + (i 0).val / 512) / 16 % 4 * 2048 + 2048
    omega

/-- The trace array ends holding the new traces. -/
theorem trace_final (c : Dev nD) : (dats m 0 c).arrAt 6 cfg0.N = synArr (m ((c : Thread nD τ).loc main_arg0)) (m ((c : Thread nD τ).loc main_arg2)) (m ((c : Thread nD τ).loc main_arg3)) :=
  (dats m 0 c).arrAt_eq_of_cover 6 _ (fun t _ => trace_flushed m c t) trace_cover

/-! ## The new voltages and the fired words -/

/-- A column of the row lies in the block of its column block's last point. -/
theorem row_cover (i : S1x8192.Idx) :
    ∃ t : Fin cfg0.N, t.val % 16 = 15 ∧ t.val / 16 % 4 = (i 1).val / 2048 := by
  have hi1 : (i 1).val < 8192 := (i 1).isLt
  have hN : cfg0.N = 64 := N_0
  have hlt : (i 1).val / 2048 * 16 + 15 < cfg0.N := by rw [hN]; omega
  exact ⟨⟨(i 1).val / 2048 * 16 + 15, hlt⟩, by show ((i 1).val / 2048 * 16 + 15) % 16 = 15; omega,
    by show ((i 1).val / 2048 * 16 + 15) / 16 % 4 = (i 1).val / 2048; omega⟩

/-- What a last-row-block point writes back to the voltage array is its block of the new voltages. -/
theorem voltage_flushed (c : Dev nD) (t : Fin cfg0.N) (hf : (cfg0.win 5).flush t = true) :
    (dats m 0 c).flushed 5 t = ((cfg0.win 5).blk t).view.read (Elt Ideal) (voltageArr (m ((c : Thread nD τ).loc main_arg0)) (m ((c : Thread nD τ).loc main_arg1)) (m ((c : Thread nD τ).loc main_arg2)) (m ((c : Thread nD τ).loc main_arg3))) := by
  have h1 : t.val % 16 = 15 := (flush0_5 t).mp hf
  show (cfg0.win 5).cut (grid0.coords t) ((dats m 0 c).after 5 t) = _
  rw [after0_5, voltageAfter m c t h1]
  obtain ⟨-, -, -, -, -, -, -, -, -, -, e0, e1, -⟩ := index_facts t
  refine funext fun (y : S1x2048.Idx) => ?_
  obtain ⟨u, q, rfl⟩ : ∃ (u : Fin 1) (q : Fin 2048), y = ix2 u q := ⟨y 0, y 1, eq_ix2 y⟩
  show k0_pay6 (F := Ideal) (iblk m c 1 t) (accAfter m c t.val t.isLt) (ix2 u q)
      = voltageArr (m ((c : Thread nD τ).loc main_arg0)) (m ((c : Thread nD τ).loc main_arg1)) (m ((c : Thread nD τ).loc main_arg2)) (m ((c : Thread nD τ).loc main_arg3)) (((cfg0.win 5).blk t).view.emb (ix2 u q))
  refine (Tile.voltage_apply (iblk m c 1 t) (accAfter m c t.val t.isLt) u q).trans ?_
  rw [voltageBlock_apply m c t u q, V_main_arg1, accAfter_of_last m c t h1 u q]
  have eC : ((((cfg0.win 5).blk t).view.emb (ix2 u q)) 1 : Fin 8192) = colOf (colBlock t.val) q :=
    Fin.ext (by show win0_5.index t (1 : Fin 2) * 2048 + 1 * q.val = t.val / 16 % 4 * 2048 + q.val; rw [e1]; omega)
  show _ = nextVoltage (m ((c : Thread nD τ).loc main_arg0)) (m ((c : Thread nD τ).loc main_arg1)) (m ((c : Thread nD τ).loc main_arg2)) (m ((c : Thread nD τ).loc main_arg3)) ((((cfg0.win 5).blk t).view.emb (ix2 u q)) 1)
  rw [eC]
  rfl

/-- What a last-row-block point writes back to the fired-word array is its block of the fired words. -/
theorem fired_flushed (c : Dev nD) (t : Fin cfg0.N) (hf : (cfg0.win 4).flush t = true) :
    (dats m 0 c).flushed 4 t = ((cfg0.win 4).blk t).view.read (Elt Ideal) (firedWordArr (m ((c : Thread nD τ).loc main_arg1))) := by
  have h1 : t.val % 16 = 15 := (flush0_4 t).mp hf
  show (cfg0.win 4).cut (grid0.coords t) ((dats m 0 c).after 4 t) = _
  rw [after0_4, firedAfter m c t h1]
  obtain ⟨-, -, -, -, -, -, -, -, e0, e1, -⟩ := index_facts t
  refine funext fun (y : S1x2048.Idx) => ?_
  obtain ⟨u, q, rfl⟩ : ∃ (u : Fin 1) (q : Fin 2048), y = ix2 u q := ⟨y 0, y 1, eq_ix2 y⟩
  show k0_pay7 (F := Ideal) (iblk m c 1 t) (ix2 u q) = firedWordArr (m ((c : Thread nD τ).loc main_arg1)) (((cfg0.win 4).blk t).view.emb (ix2 u q))
  refine (Tile.firedWord_apply (iblk m c 1 t) u q).trans ?_
  rw [voltageBlock_apply m c t u q, V_main_arg1]
  have eC : ((((cfg0.win 4).blk t).view.emb (ix2 u q)) 1 : Fin 8192) = colOf (colBlock t.val) q :=
    Fin.ext (by show win0_4.index t (1 : Fin 2) * 2048 + 1 * q.val = t.val / 16 % 4 * 2048 + q.val; rw [e1]; omega)
  show _ = (fires (m ((c : Thread nD τ).loc main_arg1)) ((((cfg0.win 4).blk t).view.emb (ix2 u q)) 1)).setWidth 32
  rw [eC]
  rfl

/-- Every column of the voltage row is in the block of its column block's last point. -/
theorem voltage_cover (i : S1x8192.Idx) :
    ∃ t : Fin cfg0.N, (cfg0.win 5).flush t = true ∧ i ∈ ((cfg0.win 5).blk t).view.set := by
  have hi0 : (i 0).val < 1 := (i 0).isLt
  have hi1 : (i 1).val < 8192 := (i 1).isLt
  obtain ⟨t, h15, hq⟩ := row_cover i
  refine ⟨t, (flush0_5 t).mpr h15, ?_⟩
  obtain ⟨-, -, -, -, -, -, -, -, -, -, e0, e1, -⟩ := index_facts t
  show i ∈ ((View.whole main_v1_1).slice (win0_5.rect t)).set
  rw [View.set_slice_whole, Rect.mem_set_unit]
  intro a
  match a with
  | ⟨0, _⟩ =>
    show win0_5.index t (0 : Fin 2) * 1 ≤ (i 0).val ∧ (i 0).val < win0_5.index t (0 : Fin 2) * 1 + 1
    rw [e0]; omega
  | ⟨1, _⟩ =>
    show win0_5.index t (1 : Fin 2) * 2048 ≤ (i 1).val ∧ (i 1).val < win0_5.index t (1 : Fin 2) * 2048 + 2048
    rw [e1, hq]; omega

/-- The same for the fired-word row. -/
theorem fired_cover (i : S1x8192.Idx) :
    ∃ t : Fin cfg0.N, (cfg0.win 4).flush t = true ∧ i ∈ ((cfg0.win 4).blk t).view.set := by
  have hi0 : (i 0).val < 1 := (i 0).isLt
  have hi1 : (i 1).val < 8192 := (i 1).isLt
  obtain ⟨t, h15, hq⟩ := row_cover i
  refine ⟨t, (flush0_4 t).mpr h15, ?_⟩
  obtain ⟨-, -, -, -, -, -, -, -, e0, e1, -⟩ := index_facts t
  show i ∈ ((View.whole main_v1_0).slice (win0_4.rect t)).set
  rw [View.set_slice_whole, Rect.mem_set_unit]
  intro a
  match a with
  | ⟨0, _⟩ =>
    show win0_4.index t (0 : Fin 2) * 1 ≤ (i 0).val ∧ (i 0).val < win0_4.index t (0 : Fin 2) * 1 + 1
    rw [e0]; omega
  | ⟨1, _⟩ =>
    show win0_4.index t (1 : Fin 2) * 2048 ≤ (i 1).val ∧ (i 1).val < win0_4.index t (1 : Fin 2) * 2048 + 2048
    rw [e1, hq]; omega

/-- The voltage array ends holding the new voltages. -/
theorem voltage_final (c : Dev nD) : (dats m 0 c).arrAt 5 cfg0.N = voltageArr (m ((c : Thread nD τ).loc main_arg0)) (m ((c : Thread nD τ).loc main_arg1)) (m ((c : Thread nD τ).loc main_arg2)) (m ((c : Thread nD τ).loc main_arg3)) :=
  (dats m 0 c).arrAt_eq_of_cover 5 _ (voltage_flushed m c) voltage_cover

/-- The fired-word array ends holding the fired words. -/
theorem firedWord_final (c : Dev nD) : (dats m 0 c).arrAt 4 cfg0.N = firedWordArr (m ((c : Thread nD τ).loc main_arg1)) :=
  (dats m 0 c).arrAt_eq_of_cover 4 _ (fired_flushed m c) fired_cover

end Cert.KernelIdeal.Arrays

end
-- ==== Proof.Layer.lean ====
/-
  The idealized kernel's run, with its three results named.

  After the region the program turns the fired words back into bits: it compares each 32-bit word with zero. The word is
  the fired bit widened, so the comparison gives the bit back. The new voltages and the new traces are the region's own
  output arrays. The four arguments end as they began.
-/
import proofs.«138355_j2894807957745_2_alg».proof.Proof.Arrays

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.LeakyLayer Cert.KernelIdeal.Arrays

variable (m : (ℓ : Loc nD τ sig) → Buf (Elt Ideal) ℓ) (ρ : Dev nD → PrngReg)

/-- The bits the program returns: each fired word compared with zero is the fired bit. -/
theorem fired_tail (c : Dev nD) :
    Pipeline.afterTail₀ cfgs (dats m) 0 (V0 m) [hostOps1] c main_v4 = firedArr (m ((c : Thread nD τ).loc main_arg1)) := by
  unfold Pipeline.afterTail₀
  show StableHlo.after hostOps1 _ (Proc.devRef .tc main_v4) = _
  after_results
  have eW : Pipeline.withArrays (cfgs 0).spec c (V0 m c) (fun w => (dats m 0 c).arrAt w (cfgs 0).N) (Proc.devRef .tc main_v1_0)
      = firedWordArr (m ((c : Thread nD τ).loc main_arg1)) :=
    (Pipeline.withArrays_arr spec0 launch0.win.arr_inj c _ _ 4).trans (firedWord_final m c)
  rw [eW]
  funext i
  have eb : broadcastInDim S1x8192 ![] bcast_S_S1x8192 (constantI S_ 32 0#32) i = 0#32 :=
    broadcastInDim_apply _ bcast_S_S1x8192 (constantI S_ 32 0#32) i (fun a => a.elim0) (fun a => a.elim0)
  show IntOp.cmpi .ne ((fires (m ((c : Thread nD τ).loc main_arg1)) (i 1)).setWidth 32)
      (broadcastInDim S1x8192 ![] bcast_S_S1x8192 (constantI S_ 32 0#32) i) = fires (m ((c : Thread nD τ).loc main_arg1)) (i 1)
  rw [eb]
  exact ne_zero_setWidth_bit _

/-- Every weakly fair execution of the idealized kernel ends with the fired bits, the new voltages and the new traces of
    its arguments, and the arguments unchanged. -/
theorem run : θ_run defs (onTc (τ := τ) (main (F := Ideal))) ⟨m, fun _ => 0, ρ⟩ fun r => ∀ c : Dev nD,
      r.2.mem ((c : Thread nD τ).loc main_v4) = firedArr (m ((c : Thread nD τ).loc main_arg1))
      ∧ r.2.mem ((c : Thread nD τ).loc main_v1_1) = voltageArr (m ((c : Thread nD τ).loc main_arg0)) (m ((c : Thread nD τ).loc main_arg1)) (m ((c : Thread nD τ).loc main_arg2)) (m ((c : Thread nD τ).loc main_arg3))
      ∧ r.2.mem ((c : Thread nD τ).loc main_v1_2) = synArr (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v4 (Pipeline.mem_restRefs_of main_v4 (by decide) (by decide))).trans (fired_tail m c),
     ((h c).1 5).trans (voltage_final m c),
     ((h c).1 6).trans (trace_final m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩)
    (run_main m ρ)

end Cert.KernelIdeal.Layer

end
-- ==== Proof.RefIsSpec.lean ====
/-
  The reference computes the specification.

  Read one operation at a time, the reference's three results are: the comparison of the decayed voltage with the
  threshold; the decayed voltage plus the column sum of the new traces (the sum taken from the zero word over all 8192
  rows) minus the fired bit, read as a number, times the threshold; and the new traces themselves, the spikes having been
  broadcast along each row. The broadcasts only re-index: the entry read is the one at the same row, or the same column.
-/
import proofs.«138355_j2894807957745_2_alg».proof.Proof.Gen.ReferenceIdeal.Read
import proofs.«138355_j2894807957745_2_alg».proof.Proof.Results
import Idealize.ShloMosaic.Lib.ValueIdx

noncomputable section

open Idealize.ShloMosaic Idealize.ShloMosaic.ValueIdx

namespace Cert.ReferenceIdeal.RefValue

open Cert.ReferenceIdeal Cert.ReferenceIdeal.Gen Cert.ReferenceIdeal.Read Cert.LeakyLayer

/-- The reference's new traces are the specification's. -/
theorem syn_eq (x0 : (⟨S8192, .f32⟩ : BufTy).Contents (Elt Ideal)) (x2 x3 : (⟨S8192x8192, .f32⟩ : BufTy).Contents (Elt Ideal)) :
    val_main_v9 (F := Ideal) x0 x2 x3 = synArr x0 x2 x3 := by
  funext i
  obtain ⟨R, C, rfl⟩ : ∃ (R C : Fin 8192), i = ix2 R C := ⟨i 0, i 1, eq_ix2 i⟩
  have e : idx_main_v6 (idx_main_v7 (ix2 R C)) = ix1 R := funext fun a => Fin.ext (by match a with | ⟨0, _⟩ => rfl)
  simp only [val_main_v9_apply, val_main_v5_apply, val_main_v4_apply, val_main_cst_1_apply, val_main_v8_apply,
    val_main_v7_apply, val_main_v6_apply, e]
  rfl

/-- The reference's fired bits are the specification's. -/
theorem fired_eq (x1 : (⟨S1x8192, .f32⟩ : BufTy).Contents (Elt Ideal)) : val_main_v3 (F := Ideal) x1 = firedArr x1 := by
  funext i
  obtain ⟨u, C, rfl⟩ : ∃ (u : Fin 1) (C : Fin 8192), i = ix2 u C := ⟨i 0, i 1, eq_ix2 i⟩
  obtain rfl : u = 0 := Subsingleton.elim _ _
  simp only [val_main_v3_apply, val_main_v1_apply, val_main_v0_apply, val_main_cst_apply, val_main_v2_apply,
    val_main_cst_0_apply]
  rfl

/-- The reference's new voltages are the specification's. -/
theorem voltage_eq (x0 : (⟨S8192, .f32⟩ : BufTy).Contents (Elt Ideal)) (x1 : (⟨S1x8192, .f32⟩ : BufTy).Contents (Elt Ideal))
    (x2 x3 : (⟨S8192x8192, .f32⟩ : BufTy).Contents (Elt Ideal)) :
    val_main_v16 (F := Ideal) x0 x1 x2 x3 = voltageArr x0 x1 x2 x3 := by
  funext i
  obtain ⟨u, C, rfl⟩ : ∃ (u : Fin 1) (C : Fin 8192), i = ix2 u C := ⟨i 0, i 1, eq_ix2 i⟩
  obtain rfl : u = 0 := Subsingleton.elim _ _
  simp only [val_main_v16_apply, val_main_v12_apply, val_main_v1_apply, val_main_v0_apply, val_main_cst_apply,
    val_main_v11_apply, val_main_v10_apply, val_main_cst_2_apply, val_main_v15_apply, val_main_v13_apply,
    val_main_v3_apply, val_main_v2_apply, val_main_cst_0_apply, val_main_v14_apply, val_main_cst_3_apply, syn_eq]
  rfl

end Cert.ReferenceIdeal.RefValue

end
-- ==== Proof.lean ====
/-
  A layer of leaky integrate-and-fire neurons: kernel against reference, over the extended reals.

  Both programs take the incoming spikes x (8192), the membrane voltages v (1 x 8192), the synapse traces s and the weights
  w (8192 x 8192 each) and return the fired bits, the new voltages and the new traces:
      trace'(R,C) = s(R,C) * d_s + w(R,C) * x(R)
      fired(C)    = ( v(C) * d_v >= 1 )
      v'(C)       = v(C) * d_v + sum over R of trace'(R,C) - fired(C) * 1
  with the same two decay words d_s, d_v and the same threshold word on both sides.
  The reference computes this in one piece. The kernel walks a 4 x 16 grid of 512 x 2048 tiles, column blocks outermost:
  at every tile it writes the tile of new traces and adds the tile's column sums into a running row that it zeroed at the
  column block's first tile; at the column block's last tile it writes the fired bits (as 32-bit words, which the program
  afterwards compares with zero) and the new voltages. The only law needed to join the two sides is that a sum over 8192
  rows is the sum over 16 blocks of the blocks' sums over 512 rows (commutativity and associativity of addition on the
  extended reals), so the finiteness of the inputs is never used. The idealization rewrote nothing, so the kernel's
  idealization is its own text read over the extended reals.
-/
import proofs.«138355_j2894807957745_2_alg».proof.Defs
import proofs.«138355_j2894807957745_2_alg».proof.Proof.Gen.Kernel
import proofs.«138355_j2894807957745_2_alg».proof.Proof.Gen.Kernel.Frame
import proofs.«138355_j2894807957745_2_alg».proof.Proof.Gen.KernelIdeal
import proofs.«138355_j2894807957745_2_alg».proof.Proof.Gen.KernelIdeal.Frame
import proofs.«138355_j2894807957745_2_alg».proof.Proof.Gen.ReferenceIdeal
import proofs.«138355_j2894807957745_2_alg».proof.Proof.Gen.ReferenceIdeal.Run
import proofs.«138355_j2894807957745_2_alg».proof.Proof.Gen.ReferenceIdeal.Read
import proofs.«138355_j2894807957745_2_alg».proof.Proof.Gen.Pre_finite_inputs
import proofs.«138355_j2894807957745_2_alg».proof.Proof.Layer
import proofs.«138355_j2894807957745_2_alg».proof.Proof.RefIsSpec
import Idealize.ShloMosaic.Adequacy
import Idealize.ShloMosaic.Init

noncomputable section

namespace Cert.Proof

open Idealize.ShloMosaic Idealize.ShloMosaic.TcCoe Idealize.SL.Sem Cert.LeakyLayer

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- Nothing was rewritten in the kernel's idealization. -/
theorem preserves : Cert.preserves_Kernel_KernelIdeal := trivial

/-- From memories agreeing on the four arguments both programs end with the fired bits, the new voltages and the new
    traces of those arguments. -/
theorem algebraic : Cert.algebraic_KernelIdeal_ReferenceIdeal := by
  intro m ρ m' ρ' _ hagree
  refine ⟨fun c => firedArr (m ((c.tc : Thread Cert.KernelIdeal.nD Cert.KernelIdeal.τ).loc Cert.KernelIdeal.main_arg1)),
    fun c => voltageArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => synArr (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Layer.run m ρ, ?_⟩
  refine (θ_run Cert.ReferenceIdeal.defs _ _).mono (fun _ h c => ?_) (Cert.ReferenceIdeal.Value.run (F := Ideal) m' ρ')
  obtain ⟨h3, h16, h9, hrest⟩ := h c
  obtain ⟨a0, a1, a2, a3⟩ := hagree c
  refine ⟨?_, ?_, ?_, hrest⟩
  · rw [h3, Cert.ReferenceIdeal.Read.val_main_v3_eq, Cert.ReferenceIdeal.RefValue.fired_eq, a1]
  · rw [h16, Cert.ReferenceIdeal.Read.val_main_v16_eq, Cert.ReferenceIdeal.RefValue.voltage_eq, a0, a1, a2, a3]
  · rw [h9, Cert.ReferenceIdeal.Read.val_main_v9_eq, Cert.ReferenceIdeal.RefValue.syn_eq, a0, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
